-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S1600000x16 : Shape := ⟨2, ![1600000, 16]⟩
abbrev S112x128 : Shape := ⟨2, ![112, 128]⟩
abbrev S128 : Shape := ⟨1, ![128]⟩
abbrev S128x128 : Shape := ⟨2, ![128, 128]⟩
abbrev S128x48 : Shape := ⟨2, ![128, 48]⟩
abbrev S48 : Shape := ⟨1, ![48]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S112x128 : S_.BroadcastsInDim S112x128 (![] : Fin 0 → Fin S112x128.rank)
  reducesTo_S112x128_S_d0_1 : S112x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x48 : S_.BroadcastsInDim S128x48 (![] : Fin 0 → Fin S128x48.rank)
  reducesTo_S128x48_S_d0_1 : S128x48.ReducesTo [0, 1] S_
  bcast_S_S48 : S_.BroadcastsInDim S48 (![] : Fin 0 → Fin S48.rank)
  reducesTo_S48_S_d0 : S48.ReducesTo [0] S_

variable [Facts]

def fn_part2 {F : FTy → Type} [FloatOps F] (main_arg8 : FVec F S48 .f32) (main_v33 : IVec S_ 1) : IVec S_ 1 :=
  let main_v34 : FVec F S48 .f32 := Host.absf main_arg8
  let main_cst_12 : FVec F S_ .f32 := constant S_ .f32 0x7F800000#32
  let main_v35 : FVec F S48 .f32 := broadcastInDim S48 ![] bcast_S_S48 main_cst_12
  let main_v36 : IVec S48 1 := cmpf .olt main_v34 main_v35
  let main_c_13 : IVec S_ 1 := constantI S_ 1 1#1
  let main_v37 : IVec S_ 1 := (fun x v => Host.reduce IntOp.andi x v reducesTo_S48_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x48 .f32) (main_arg8 : FVec F S48 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x48 .f32 := Host.absf main_arg7
  let main_cst_10 : FVec F S_ .f32 := constant S_ .f32 0x7F800000#32
  let main_v30 : FVec F S128x48 .f32 := broadcastInDim S128x48 ![] bcast_S_S128x48 main_cst_10
  let main_v31 : IVec S128x48 1 := cmpf .olt main_v29 main_v30
  let main_c_11 : IVec S_ 1 := constantI S_ 1 1#1
  let main_v32 : IVec S_ 1 := (fun x v => Host.reduce IntOp.andi x v reducesTo_S128x48_S_d0_1 h_S_) main_v31 main_c_11
  let main_v33 : IVec S_ 1 := andi main_v28 main_v32
  fn_part2 (F := F) main_arg8 main_v33

def fn {F : FTy → Type} [FloatOps F] (main_arg0 : FVec F S100000x48 .f32) (main_arg1 : IVec S2x1600000 32) (main_arg2 : FVec F S1600000x16 .f32) (main_arg3 : FVec F S112x128 .f32) (main_arg4 : FVec F S128 .f32) (main_arg5 : FVec F S128x128 .f32) (main_arg6 : FVec F S128 .f32) (main_arg7 : FVec F S128x48 .f32) (main_arg8 : FVec F S48 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S112x128 .f32 := Host.absf main_arg3
  let main_cst_2 : FVec F S_ .f32 := constant S_ .f32 0x7F800000#32
  let main_v10 : FVec F S112x128 .f32 := broadcastInDim S112x128 ![] bcast_S_S112x128 main_cst_2
  let main_v11 : IVec S112x128 1 := cmpf .olt main_v9 main_v10
  let main_c_3 : IVec S_ 1 := constantI S_ 1 1#1
  let main_v12 : IVec S_ 1 := (fun x v => Host.reduce IntOp.andi x v reducesTo_S112x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x48 : Shape := ⟨2, ![100000, 48]⟩
abbrev S2x1600000 : Shape := ⟨2, ![2, 1600000]⟩
abbrev S1600000x16 : Shape := ⟨2, ![1600000, 16]⟩
abbrev S112x128 : Shape := ⟨2, ![112, 128]⟩
abbrev S128 : Shape := ⟨1, ![128]⟩
abbrev S128x128 : Shape := ⟨2, ![128, 128]⟩
abbrev S128x48 : Shape := ⟨2, ![128, 48]⟩
abbrev S48 : Shape := ⟨1, ![48]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S1x128 : Shape := ⟨2, ![1, 128]⟩
abbrev S1x48 : Shape := ⟨2, ![1, 48]⟩
abbrev S6400x48 : Shape := ⟨2, ![6400, 48]⟩
abbrev S6400x16 : Shape := ⟨2, ![6400, 16]⟩
abbrev S48x128 : Shape := ⟨2, ![48, 128]⟩
abbrev S16x128 : Shape := ⟨2, ![16, 128]⟩
abbrev S6400x128 : Shape := ⟨2, ![6400, 128]⟩
abbrev S100000 : Shape := ⟨1, ![100000]⟩
abbrev S100000x1 : Shape := ⟨2, ![100000, 1]⟩

abbrev nBuf : Space → Nat
  | .hbm => 52
  | .vmem => 14
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S1600000x16, .f32⟩
  | .hbm, ⟨3, _⟩ => ⟨S112x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x48, .f32⟩
  | .hbm, ⟨8, _⟩ => ⟨S48, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x48, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x48, .f32⟩
  | .hbm, ⟨31, _⟩ => ⟨S1x128, .f32⟩
  | .hbm, ⟨32, _⟩ => ⟨S1x128, .f32⟩
  | .hbm, ⟨33, _⟩ => ⟨S1x48, .f32⟩
  | .hbm, ⟨34, _⟩ => ⟨S1600000x48, .f32⟩
  | .hbm, ⟨35, _⟩ => ⟨S_, .f32⟩
  | .hbm, ⟨36, _⟩ => ⟨S100000x48, .f32⟩
  | .hbm, ⟨37, _⟩ => ⟨S1600000x1, .i32⟩
  | .hbm, ⟨38, _⟩ => ⟨S100000x48, .f32⟩
  | .hbm, ⟨39, _⟩ => ⟨S_, .f32⟩
  | .hbm, ⟨40, _⟩ => ⟨S1600000, .f32⟩
  | .hbm, ⟨41, _⟩ => ⟨S_, .f32⟩
  | .hbm, ⟨42, _⟩ => ⟨S100000, .f32⟩
  | .hbm, ⟨43, _⟩ => ⟨S1600000x1, .i32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x48, .f32⟩
  | .hbm, ⟨50, _⟩ => ⟨S100000x48, .f32⟩
  | .hbm, ⟨51, _⟩ => ⟨S100000x48, .f32⟩
  | .local _ .vmem, ⟨0, _⟩ => ⟨S6400x48, .f32⟩
  | .local _ .vmem, ⟨1, _⟩ => ⟨S6400x48, .f32⟩
  | .local _ .vmem, ⟨2, _⟩ => ⟨S6400x48, .f32⟩
  | .local _ .vmem, ⟨3, _⟩ => ⟨S6400x48, .f32⟩
  | .local _ .vmem, ⟨4, _⟩ => ⟨S6400x16, .f32⟩
  | .local _ .vmem, ⟨5, _⟩ => ⟨S6400x16, .f32⟩
  | .local _ .vmem, ⟨6, _⟩ => ⟨S112x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x48, .f32⟩
  | .local _ .vmem, ⟨11, _⟩ => ⟨S1x48, .f32⟩
  | .local _ .vmem, ⟨12, _⟩ => ⟨S6400x48, .f32⟩
  | .local _ .vmem, ⟨13, _⟩ => ⟨S6400x48, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x48 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S128_S1x128 : S128.ShapeCasts S1x128
  shapeCasts_S48_S1x48 : S48.ShapeCasts S1x48
  inb_S6400x48_S6400x48_0_0 : ∀ a, (![0, 0] : Fin 2 → Nat) a + S6400x48.size a ≤ S6400x48.size a
  h_S6400x48 : 0 < S6400x48.numel
  shapeCasts_S6400x48_S6400x48 : S6400x48.ShapeCasts S6400x48
  bitsLt_bf16_f32 : FTy.bits .bf16 < FTy.bits .f32
  inb_S6400x16_S6400x16_0_0 : ∀ a, (![0, 0] : Fin 2 → Nat) a + S6400x16.size a ≤ S6400x16.size a
  h_S6400x16 : 0 < S6400x16.numel
  inb_S112x128_S112x128_0_0 : ∀ a, (![0, 0] : Fin 2 → Nat) a + S112x128.size a ≤ S112x128.size a
  h_S112x128 : 0 < S112x128.numel
  slices_S112x128_o0_0_S48x128 : S112x128.Slices ![0, 0] S48x128
  slices_S112x128_o48_0_S48x128 : S112x128.Slices ![48, 0] S48x128
  slices_S112x128_o96_0_S16x128 : S112x128.Slices ![96, 0] S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x128_S128x128_0_0 : ∀ a, (![0, 0] : Fin 2 → Nat) a + S128x128.size a ≤ S128x128.size a
  h_S128x128 : 0 < S128x128.numel
  inb_S128x48_S128x48_0_0 : ∀ a, (![0, 0] : Fin 2 → Nat) a + S128x48.size a ≤ S128x48.size a
  h_S128x48 : 0 < S128x48.numel
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S6400x48 : S1x48.Broadcasts S6400x48
  bcast_S_S100000x48 : S_.BroadcastsInDim S100000x48 (![] : Fin 0 → Fin S100000x48.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x48_0_1 : S100000x1.BroadcastsInDim S100000x48 (![0, 1] : Fin 2 → Fin S100000x48.rank)
  gather_S100000x48_S1600000x1_S1600000x48_1_0_n_n_0_1_148_wf : GatherDims.WF S100000x48 S1600000x1 S1600000x48 [1] [0] [] [0] [] 1 ![1, 48]
  dot_S6400x48_S48x128_S6400x128_1_0_0_1_n_n_wf : DotDims.WF S6400x48 S48x128 S6400x128 [1] [0] [0] [1] [] []
  dot_S6400x16_S16x128_S6400x128_1_0_0_1_n_n_wf : DotDims.WF S6400x16 S16x128 S6400x128 [1] [0] [0] [1] [] []
  dot_S6400x128_S128x128_S6400x128_1_0_0_1_n_n_wf : DotDims.WF S6400x128 S128x128 S6400x128 [1] [0] [0] [1] [] []
  dot_S6400x128_S128x48_S6400x48_1_0_0_1_n_n_wf : DotDims.WF S6400x128 S128x48 S6400x48 [1] [0] [0] [1] [] []
  scatter_S100000x48_S1600000x1_S1600000x48_1_0_0_1_wf : ScatterDims.WF S100000x48 S1600000x1 S1600000x48 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x48.size a ≤ S1600000x48.size a
  hwx0_0 : ∀ i : grid0.Coords, EltTy.bits .f32 = 32 ∨ (Rect.block (s := S1600000x48) S6400x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x48.size a ≤ S1600000x48.size a
  hwx0_1 : ∀ i : grid0.Coords, EltTy.bits .f32 = 32 ∨ (Rect.block (s := S1600000x48) S6400x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x16.size a ≤ S1600000x16.size a
  hwx0_2 : ∀ i : grid0.Coords, EltTy.bits .f32 = 32 ∨ (Rect.block (s := S1600000x16) S6400x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S112x128.size a ≤ S112x128.size a
  hwx0_3 : ∀ i : grid0.Coords, EltTy.bits .f32 = 32 ∨ (Rect.block (s := S112x128) S112x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x48.size a ≤ S128x48.size a
  hwx0_7 : ∀ i : grid0.Coords, EltTy.bits .f32 = 32 ∨ (Rect.block (s := S128x48) S128x48.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x48.size a ≤ S1x48.size a
  hwx0_8 : ∀ i : grid0.Coords, EltTy.bits .f32 = 32 ∨ (Rect.block (s := S1x48) S1x48.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x48.size a ≤ S1600000x48.size a
  hwx0_9 : ∀ i : grid0.Coords, EltTy.bits .f32 = 32 ∨ (Rect.block (s := S1600000x48) S6400x48.size (cc0_transform_9 i) (hinb0_9 i)).WholeWords (EltTy.packing .f32)

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def dot_S6400x48_S48x128_S6400x128_1_0_0_1_n_n : DotDims S6400x48 S48x128 S6400x128 where
  lhsContracting := [1]
  rhsContracting := [0]
  lhsNonContracting := [0]
  rhsNonContracting := [1]
  lhsBatch := []
  rhsBatch := []
  wf := dot_S6400x48_S48x128_S6400x128_1_0_0_1_n_n_wf
def dot_S6400x16_S16x128_S6400x128_1_0_0_1_n_n : DotDims S6400x16 S16x128 S6400x128 where
  lhsContracting := [1]
  rhsContracting := [0]
  lhsNonContracting := [0]
  rhsNonContracting := [1]
  lhsBatch := []
  rhsBatch := []
  wf := dot_S6400x16_S16x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x128_S128x48_S6400x48_1_0_0_1_n_n : DotDims S6400x128 S128x48 S6400x48 where
  lhsContracting := [1]
  rhsContracting := [0]
  lhsNonContracting := [0]
  rhsNonContracting := [1]
  lhsBatch := []
  rhsBatch := []
  wf := dot_S6400x128_S128x48_S6400x48_1_0_0_1_n_n_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_v10) S6400x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6400x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S112x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x48.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x48.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S6400x48.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x48 : Shape := ⟨2, ![100000, 48]⟩
abbrev S2x1600000 : Shape := ⟨2, ![2, 1600000]⟩
abbrev S1600000x16 : Shape := ⟨2, ![1600000, 16]⟩
abbrev S112x128 : Shape := ⟨2, ![112, 128]⟩
abbrev S128 : Shape := ⟨1, ![128]⟩
abbrev S128x128 : Shape := ⟨2, ![128, 128]⟩
abbrev S128x48 : Shape := ⟨2, ![128, 48]⟩
abbrev S48 : Shape := ⟨1, ![48]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S1600000x112 : Shape := ⟨2, ![1600000, 112]⟩
abbrev S1600000x128 : Shape := ⟨2, ![1600000, 128]⟩
abbrev S1x128 : Shape := ⟨2, ![1, 128]⟩
abbrev S1x48 : Shape := ⟨2, ![1, 48]⟩
abbrev S100000 : Shape := ⟨1, ![100000]⟩
abbrev S100000x1 : Shape := ⟨2, ![100000, 1]⟩

abbrev nBuf : Space → Nat
  | .hbm => 67
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S1600000x16, .f32⟩
  | .hbm, ⟨3, _⟩ => ⟨S112x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x48, .f32⟩
  | .hbm, ⟨8, _⟩ => ⟨S48, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x48, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x48, .f32⟩
  | .hbm, ⟨31, _⟩ => ⟨S1600000x112, .f32⟩
  | .hbm, ⟨32, _⟩ => ⟨S1600000x128, .f32⟩
  | .hbm, ⟨33, _⟩ => ⟨S1x128, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S1600000x128, .f32⟩
  | .hbm, ⟨38, _⟩ => ⟨S1600000x128, .f32⟩
  | .hbm, ⟨39, _⟩ => ⟨S1600000x128, .f32⟩
  | .hbm, ⟨40, _⟩ => ⟨S1x128, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S1600000x128, .f32⟩
  | .hbm, ⟨45, _⟩ => ⟨S1600000x128, .f32⟩
  | .hbm, ⟨46, _⟩ => ⟨S1600000x48, .f32⟩
  | .hbm, ⟨47, _⟩ => ⟨S1x48, .f32⟩
  | .hbm, ⟨48, _⟩ => ⟨S1600000x48, .f32⟩
  | .hbm, ⟨49, _⟩ => ⟨S1600000x48, .f32⟩
  | .hbm, ⟨50, _⟩ => ⟨S_, .f32⟩
  | .hbm, ⟨51, _⟩ => ⟨S100000x48, .f32⟩
  | .hbm, ⟨52, _⟩ => ⟨S1600000x1, .i32⟩
  | .hbm, ⟨53, _⟩ => ⟨S100000x48, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x48, .f32⟩
  | .hbm, ⟨65, _⟩ => ⟨S100000x48, .f32⟩
  | .hbm, ⟨66, _⟩ => ⟨S100000x48, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x48_S1600000x48_S1600000x16_S1600000x112_d1 : Shape.Concatenates [S1600000x48, S1600000x48, S1600000x16] S1600000x112 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S48_S1x48_1 : S48.BroadcastsInDim S1x48 (![1] : Fin 1 → Fin S1x48.rank)
  bcast_S1x48_S1600000x48_0_1 : S1x48.BroadcastsInDim S1600000x48 (![0, 1] : Fin 2 → Fin S1600000x48.rank)
  bcast_S_S100000x48 : S_.BroadcastsInDim S100000x48 (![] : Fin 0 → Fin S100000x48.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x48_0_1 : S100000x1.BroadcastsInDim S100000x48 (![0, 1] : Fin 2 → Fin S100000x48.rank)
  gather_S100000x48_S1600000x1_S1600000x48_1_0_n_n_0_1_148_wf : GatherDims.WF S100000x48 S1600000x1 S1600000x48 [1] [0] [] [0] [] 1 ![1, 48]
  dot_S1600000x112_S112x128_S1600000x128_1_0_0_1_n_n_wf : DotDims.WF S1600000x112 S112x128 S1600000x128 [1] [0] [0] [1] [] []
  dot_S1600000x128_S128x128_S1600000x128_1_0_0_1_n_n_wf : DotDims.WF S1600000x128 S128x128 S1600000x128 [1] [0] [0] [1] [] []
  dot_S1600000x128_S128x48_S1600000x48_1_0_0_1_n_n_wf : DotDims.WF S1600000x128 S128x48 S1600000x48 [1] [0] [0] [1] [] []
  scatter_S100000x48_S1600000x1_S1600000x48_1_0_0_1_wf : ScatterDims.WF S100000x48 S1600000x1 S1600000x48 [1] [0] [0] 1
  scatter_S100000_S1600000x1_S1600000_n_0_0_1_wf : ScatterDims.WF S100000 S1600000x1 S1600000 [] [0] [0] 1

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def dot_S1600000x112_S112x128_S1600000x128_1_0_0_1_n_n : DotDims S1600000x112 S112x128 S1600000x128 where
  lhsContracting := [1]
  rhsContracting := [0]
  lhsNonContracting := [0]
  rhsNonContracting := [1]
  lhsBatch := []
  rhsBatch := []
  wf := dot_S1600000x112_S112x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x48_S1600000x48_1_0_0_1_n_n : DotDims S1600000x128 S128x48 S1600000x48 where
  lhsContracting := [1]
  rhsContracting := [0]
  lhsNonContracting := [0]
  rhsNonContracting := [1]
  lhsBatch := []
  rhsBatch := []
  wf := dot_S1600000x128_S128x48_S1600000x48_1_0_0_1_n_n_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.LibConcatThree.lean ====
/-
  Three pieces joined along the last axis, and a sum over the joined axis.

  Three matrices `[n, a]`, `[n, b]`, `[n, c]` with the same rows, joined along their columns into `[n, d]`
  (`d = a + b + c`), read at `(r, k)`: the first piece at `(r, k)` when `k < a`, the second at `(r, k - a)` when
  `a ≤ k < a + b`, the third at `(r, k - a - b)` from there on. Accordingly a sum over the joined axis is the sum of
  the three sums over the pieces' own axes, in any commutative additive monoid (so on the extended reals, with no
  finiteness asked).
-/
import Idealize.ShloMosaic.Lib.ValueIdx
import Idealize.ShloMosaic.Lib.Pipeline.Value

noncomputable section

namespace Cert.LibConcatThree

open Idealize.ShloMosaic Idealize.ShloMosaic.ValueIdx

variable {α : Type} {n a b c d : ℕ}

/-- The joined matrix at a column of the FIRST piece. -/
theorem concat3_first (x₁ : (⟨2, ![n, a]⟩ : Shape).Idx → α) (x₂ : (⟨2, ![n, b]⟩ : Shape).Idx → α)
    (x₃ : (⟨2, ![n, c]⟩ : Shape).Idx → α)
    (h : Shape.Concatenates [(⟨2, ![n, a]⟩ : Shape), ⟨2, ![n, b]⟩, ⟨2, ![n, c]⟩] ⟨2, ![n, d]⟩ (1 : Fin 2))
    (r : Fin n) (k : Fin d) (hk : k.val < a) :
    concatenate ⟨2, ![n, d]⟩ (1 : Fin 2) [⟨⟨2, ![n, a]⟩, x₁⟩, ⟨⟨2, ![n, b]⟩, x₂⟩, ⟨⟨2, ![n, c]⟩, x₃⟩] h (ix2 r k)
      = x₁ (ix2 r ⟨k.val, hk⟩) := by
  refine concatenate_apply_piece (t := ⟨2, ![n, d]⟩) (1 : Fin 2) [⟨⟨2, ![n, a]⟩, x₁⟩, ⟨⟨2, ![n, b]⟩, x₂⟩, ⟨⟨2, ![n, c]⟩, x₃⟩] h (ix2 r k) 0 (by simp) ⟨2, ![n, a]⟩ x₁ rfl rfl 0 rfl
    (ix2 r ⟨k.val, hk⟩) (fun bb hb => ?_) ?_
  · match bb with
    | ⟨0, _⟩ => rfl
    | ⟨1, _⟩ => exact absurd rfl hb
  · show 0 + k.val = k.val
    omega

/-- The joined matrix at a column of the SECOND piece. -/
theorem concat3_second (x₁ : (⟨2, ![n, a]⟩ : Shape).Idx → α) (x₂ : (⟨2, ![n, b]⟩ : Shape).Idx → α)
    (x₃ : (⟨2, ![n, c]⟩ : Shape).Idx → α)
    (h : Shape.Concatenates [(⟨2, ![n, a]⟩ : Shape), ⟨2, ![n, b]⟩, ⟨2, ![n, c]⟩] ⟨2, ![n, d]⟩ (1 : Fin 2))
    (r : Fin n) (k : Fin d) (q : Fin b) (hq : a + q.val = k.val) :
    concatenate ⟨2, ![n, d]⟩ (1 : Fin 2) [⟨⟨2, ![n, a]⟩, x₁⟩, ⟨⟨2, ![n, b]⟩, x₂⟩, ⟨⟨2, ![n, c]⟩, x₃⟩] h (ix2 r k)
      = x₂ (ix2 r q) := by
  refine concatenate_apply_piece (t := ⟨2, ![n, d]⟩) (1 : Fin 2) [⟨⟨2, ![n, a]⟩, x₁⟩, ⟨⟨2, ![n, b]⟩, x₂⟩, ⟨⟨2, ![n, c]⟩, x₃⟩] h (ix2 r k) 1 (by simp) ⟨2, ![n, b]⟩ x₂ rfl rfl a (by simp)
    (ix2 r q) (fun bb hb => ?_) ?_
  · match bb with
    | ⟨0, _⟩ => rfl
    | ⟨1, _⟩ => exact absurd rfl hb
  · exact hq

/-- The joined matrix at a column of the THIRD piece. -/
theorem concat3_third (x₁ : (⟨2, ![n, a]⟩ : Shape).Idx → α) (x₂ : (⟨2, ![n, b]⟩ : Shape).Idx → α)
    (x₃ : (⟨2, ![n, c]⟩ : Shape).Idx → α)
    (h : Shape.Concatenates [(⟨2, ![n, a]⟩ : Shape), ⟨2, ![n, b]⟩, ⟨2, ![n, c]⟩] ⟨2, ![n, d]⟩ (1 : Fin 2))
    (r : Fin n) (k : Fin d) (q : Fin c) (hq : a + b + q.val = k.val) :
    concatenate ⟨2, ![n, d]⟩ (1 : Fin 2) [⟨⟨2, ![n, a]⟩, x₁⟩, ⟨⟨2, ![n, b]⟩, x₂⟩, ⟨⟨2, ![n, c]⟩, x₃⟩] h (ix2 r k)
      = x₃ (ix2 r q) := by
  refine concatenate_apply_piece (t := ⟨2, ![n, d]⟩) (1 : Fin 2) [⟨⟨2, ![n, a]⟩, x₁⟩, ⟨⟨2, ![n, b]⟩, x₂⟩, ⟨⟨2, ![n, c]⟩, x₃⟩] h (ix2 r k) 2 (by simp) ⟨2, ![n, c]⟩ x₃ rfl rfl (a + b) (by simp)
    (ix2 r q) (fun bb hb => ?_) ?_
  · match bb with
    | ⟨0, _⟩ => rfl
    | ⟨1, _⟩ => exact absurd rfl hb
  · exact hq

/-- A sum over `Fin (a + b + c)` is the sum of the sums over the three stretches. -/
theorem sum_three {M : Type} [AddCommMonoid M] (f : Fin (a + b + c) → M) :
    ∑ k, f k = (∑ h : Fin a, f ⟨h.val, by have := h.isLt; omega⟩)
      + (∑ h : Fin b, f ⟨a + h.val, by have := h.isLt; omega⟩)
      + ∑ h : Fin c, f ⟨a + b + h.val, by have := h.isLt; omega⟩ := by
  rw [Fin.sum_univ_add, Fin.sum_univ_add]
  rfl

end Cert.LibConcatThree

end
-- ==== Proof.Spec.lean ====
/-
  The message an edge sends, as ONE function of the arrays.

  An edge carries a row `s` of 48 source features, a row `t` of 48 target features and a row `e` of 16 features of
  its own. Its message is a three-layer perceptron of the 112 numbers `(s, t, e)`:
      h₁ = max (W₁ᵀ (s, t, e) + b₁) 0,   h₂ = max (W₂ᵀ h₁ + b₂) 0,   message = W₃ᵀ h₂ + b₃,
  on the extended reals. The first layer can be written in two ways: as ONE product with the joined row `(s, t, e)` of
  112 entries, or as the sum of THREE products, of `s` with the first 48 rows of `W₁`, of `t` with the next 48 and of
  `e` with the last 16. The two agree because a sum over 112 = 48 + 48 + 16 indices is the sum of the three partial sums
  (`first_joined`): only associativity and commutativity of the extended reals' addition enter, so no entry need be finite.
-/
import proofs.«133882_j74835510165535_1_alg».proof.Proof.LibConcatThree
import Idealize.ShloMosaic.Lib.ValueIdx
import Idealize.ShloMosaic.PureOps.Ideal

noncomputable section

namespace Cert.EdgeMessage

open Idealize.ShloMosaic Idealize.ShloMosaic.ValueIdx

/-- `x · W + b` at column `c`, for one row `x`. -/
def dense {k o : ℕ} (x : Fin k → EReal) (W : Fin k → Fin o → EReal) (b : Fin o → EReal) (c : Fin o) : EReal :=
  (∑ h : Fin k, x h * W h c) + b c

/-- The first layer before its threshold, as THREE partial products: `s` against rows 0–47 of `W`, `t` against rows
    48–95, `e` against rows 96–111, then the bias. -/
def first (s t : Fin 48 → EReal) (e : Fin 16 → EReal) (W : Fin 112 → Fin 128 → EReal) (b : Fin 128 → EReal)
    (c : Fin 128) : EReal :=
  (∑ h : Fin 48, s h * W ⟨h.val, by have := h.isLt; omega⟩ c)
    + (∑ h : Fin 48, t h * W ⟨48 + h.val, by have := h.isLt; omega⟩ c)
    + (∑ h : Fin 16, e h * W ⟨96 + h.val, by have := h.isLt; omega⟩ c)
    + b c

/-- The message of one edge at feature `c`: the threshold is the maximum with the zero word. -/
def message (s t : Fin 48 → EReal) (e : Fin 16 → EReal) (W₁ : Fin 112 → Fin 128 → EReal) (b₁ : Fin 128 → EReal)
    (W₂ : Fin 128 → Fin 128 → EReal) (b₂ : Fin 128 → EReal) (W₃ : Fin 128 → Fin 48 → EReal) (b₃ : Fin 48 → EReal)
    (c : Fin 48) : EReal :=
  dense (fun j => max (dense (fun i => max (first s t e W₁ b₁ i) (Ideal.ofBits .f32 0x00000000#32)) W₂ b₂ j)
    (Ideal.ofBits .f32 0x00000000#32)) W₃ b₃ c

/-- The messages of all edges: row `r` of the result is the message of the edge whose feature rows are row `r` of
    `S`, of `T` and of `E`. The weights are matrices, the biases functions of the feature. -/
def messages {n : ℕ} (S T : (⟨2, ![n, 48]⟩ : Shape).Idx → EReal) (E : (⟨2, ![n, 16]⟩ : Shape).Idx → EReal)
    (W₁ : (⟨2, ![112, 128]⟩ : Shape).Idx → EReal) (b₁ : Fin 128 → EReal)
    (W₂ : (⟨2, ![128, 128]⟩ : Shape).Idx → EReal) (b₂ : Fin 128 → EReal)
    (W₃ : (⟨2, ![128, 48]⟩ : Shape).Idx → EReal) (b₃ : Fin 48 → EReal) :
    (⟨2, ![n, 48]⟩ : Shape).Idx → EReal := fun i =>
  message (fun h => S (ix2 (i 0 : Fin n) h)) (fun h => T (ix2 (i 0 : Fin n) h)) (fun h => E (ix2 (i 0 : Fin n) h))
    (fun h c => W₁ (ix2 h c)) b₁ (fun h c => W₂ (ix2 h c)) b₂ (fun h c => W₃ (ix2 h c)) b₃ (i 1 : Fin 48)

/-- The three rows joined into one of 112 entries. -/
def joined (s t : Fin 48 → EReal) (e : Fin 16 → EReal) (k : Fin 112) : EReal :=
  if h₁ : k.val < 48 then s ⟨k.val, h₁⟩
  else if h₂ : k.val < 96 then t ⟨k.val - 48, by omega⟩
  else e ⟨k.val - 96, by have := k.isLt; omega⟩

/-- ONE product with the joined row is the sum of the three partial products. -/
theorem first_joined (s t : Fin 48 → EReal) (e : Fin 16 → EReal) (W : Fin 112 → Fin 128 → EReal)
    (b : Fin 128 → EReal) (c : Fin 128) : dense (joined s t e) W b c = first s t e W b c := by
  unfold dense first
  refine congrArg (· + b c) ?_
  refine (Cert.LibConcatThree.sum_three (a := 48) (b := 48) (c := 16) (fun k => joined s t e k * W k c)).trans ?_
  refine congrArg₂ (· + ·) (congrArg₂ (· + ·) ?_ ?_) ?_
  · refine Finset.sum_congr rfl fun h _ => ?_
    have hh : h.val < 48 := h.isLt
    refine congrArg (· * W _ c) ?_
    unfold joined
    rw [dif_pos (show (⟨h.val, _⟩ : Fin 112).val < 48 from hh)]
  · refine Finset.sum_congr rfl fun h _ => ?_
    have hh : h.val < 48 := h.isLt
    refine congrArg (· * W _ c) ?_
    unfold joined
    rw [dif_neg (show ¬ (⟨48 + h.val, _⟩ : Fin 112).val < 48 from by simp),
      dif_pos (show (⟨48 + h.val, _⟩ : Fin 112).val < 96 from by simp; omega)]
    exact congrArg t (Fin.ext (by simp))
  · refine Finset.sum_congr rfl fun h _ => ?_
    have hh : h.val < 16 := h.isLt
    refine congrArg (· * W _ c) ?_
    unfold joined
    rw [dif_neg (show ¬ (⟨48 + 48 + h.val, _⟩ : Fin 112).val < 48 from by simp; omega),
      dif_neg (show ¬ (⟨48 + 48 + h.val, _⟩ : Fin 112).val < 96 from by simp)]
    exact congrArg e (Fin.ext (by simp))

end Cert.EdgeMessage

end
-- ==== Proof.KernelPayload.lean ====
/-
  What the kernel's body computes for one block of 6400 edges, entry by entry.

  The body loads a block of source rows `x0`, of target rows `x1` and of edge rows `x2`, the three weight matrices
  `x3`, `x5`, `x7` and the three bias rows `x4`, `x6`, `x8` (each bias held as a `[1, n]` row). On the extended reals the
  roundings to a narrower float format are the identity, each matrix product into a zero accumulator is the sum over
  the contracted coordinate, a slice of rows `o … o + r - 1` of `x3` read at `(h, c)` is `x3` at `(o + h, c)`, and a bias row
  broadcast down the block contributes its entry `(0, c)`. So entry `(p, q)` of what the body stores is the message
  (`Cert.EdgeMessage.message`) of the edge whose three feature rows are row `p` of the three blocks.
-/
import proofs.«133882_j74835510165535_1_alg».proof.Proof.Gen.KernelIdeal.Skeleton
import proofs.«133882_j74835510165535_1_alg».proof.Proof.LibMatProduct
import proofs.«133882_j74835510165535_1_alg».proof.Proof.Spec
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.EdgeMessage

/-- A matrix product `[m, k] · [k, n]` into a zero accumulator at `(p, q)` is `∑ h, X (p, h) * W (h, q)`. -/
theorem matmul_at {m k n : ℕ} {φ₁ φ₂ : FTy} (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![m, k]⟩ φ₁) (W : FVec Ideal ⟨2, ![k, n]⟩ φ₂) (p : Fin m) (q : Fin n) :
    matmul d none X W (constant ⟨2, ![m, n]⟩ .f32 0x00000000#32) (ix2 p q) = ∑ h : Fin k, X (ix2 p h) * W (ix2 h q) :=
  Cert.LibMatProduct.matmul_zero_apply d none hlc hrc hln hrn hlb hrb X W p q

/-- Rows `o, o + 1, …` of a matrix, cut out as a matrix of their own, read at `(h, c)`: the matrix at `(o + h, c)`. -/
theorem rows_at {α : Type} {R C r : ℕ} (o : ℕ) (x : (⟨2, ![R, C]⟩ : Shape).Idx → α)
    (hs : (⟨2, ![R, C]⟩ : Shape).Slices ![o, 0] ⟨2, ![r, C]⟩) (h : Fin r) (c : Fin C) (k : Fin R) (hk : k.val = o + h.val) :
    extractStridedSlice ⟨2, ![r, C]⟩ ![o, 0] x hs (ix2 h c) = x (ix2 k c) :=
  extractStridedSlice_apply ![o, 0] x hs (ix2 h c) (ix2 k c) fun a => by
    match a with
    | ⟨0, _⟩ => exact hk
    | ⟨1, _⟩ => show c.val = 0 + c.val; omega

variable [Cert.KernelIdeal.Facts]

/-- The second hidden layer of the edge in row `p` of the block, at unit `c`. -/
theorem hidden_at (x0 x1 : Vec Ideal S6400x48 .f32) (x2 : Vec Ideal S6400x16 .f32) (x3 : Vec Ideal S112x128 .f32)
    (x4 : Vec Ideal S1x128 .f32) (x5 : Vec Ideal S128x128 .f32) (x6 : Vec Ideal S1x128 .f32) (p : Fin 6400) (c : Fin 128) :
    k0_pay2 (F := Ideal) x0 x1 x2 x3 x4 x5 x6 (ix2 p c)
      = max (dense (fun i => max (first (fun h => x0 (ix2 p h)) (fun h => x1 (ix2 p h)) (fun h => x2 (ix2 p h))
            (fun h c => x3 (ix2 h c)) (fun c => x4 (ix2 (0 : Fin 1) c)) i) (Ideal.ofBits .f32 0x00000000#32))
          (fun h c => x5 (ix2 h c)) (fun c => x6 (ix2 (0 : Fin 1) c)) c) (Ideal.ofBits .f32 0x00000000#32) := by
  have e1 := @matmul_at 6400 48 128 .bf16 .bf16 dot_S6400x48_S48x128_S6400x128_1_0_0_1_n_n rfl rfl rfl rfl rfl rfl
  have e2 := @matmul_at 6400 16 128 .bf16 .bf16 dot_S6400x16_S16x128_S6400x128_1_0_0_1_n_n rfl rfl rfl rfl rfl rfl
  have e3 := @matmul_at 6400 128 128 .bf16 .bf16 dot_S6400x128_S128x128_S6400x128_1_0_0_1_n_n rfl rfl rfl rfl rfl rfl
  have s0 : ∀ (w : (⟨2, ![112, 128]⟩ : Shape).Idx → EReal) (h : Fin 48) (c : Fin 128),
      extractStridedSlice S48x128 ![0, 0] w slices_S112x128_o0_0_S48x128 (ix2 h c)
        = w (ix2 ⟨h.val, by have := h.isLt; omega⟩ c) := fun w h c =>
    rows_at 0 w slices_S112x128_o0_0_S48x128 h c _ (Nat.zero_add _).symm
  have s1 : ∀ (w : (⟨2, ![112, 128]⟩ : Shape).Idx → EReal) (h : Fin 48) (c : Fin 128),
      extractStridedSlice S48x128 ![48, 0] w slices_S112x128_o48_0_S48x128 (ix2 h c)
        = w (ix2 ⟨48 + h.val, by have := h.isLt; omega⟩ c) := fun w h c =>
    rows_at 48 w slices_S112x128_o48_0_S48x128 h c _ rfl
  have s2 : ∀ (w : (⟨2, ![112, 128]⟩ : Shape).Idx → EReal) (h : Fin 16) (c : Fin 128),
      extractStridedSlice S16x128 ![96, 0] w slices_S112x128_o96_0_S16x128 (ix2 h c)
        = w (ix2 ⟨96 + h.val, by have := h.isLt; omega⟩ c) := fun w h c =>
    rows_at 96 w slices_S112x128_o96_0_S16x128 h c _ rfl
  unfold k0_pay2
  simp only [truncf_apply, maximumf_apply, addf_apply, broadcast_apply, shapeCast_self, e1, e2, e3, s0, s1, s2,
    broadcastTo_1b_ab_apply]
  rfl

/-- The message of the edge in row `p` of the block, at feature `q`, from its second hidden layer. -/
theorem out_at (v36 : FVec Ideal S6400x128 .bf16) (x7 : Vec Ideal S128x48 .f32) (x8 : Vec Ideal S1x48 .f32)
    (p : Fin 6400) (q : Fin 48) :
    k0_pay1 (F := Ideal) v36 x7 x8 (ix2 p q)
      = dense (fun j => v36 (ix2 p j)) (fun h c => x7 (ix2 h c)) (fun c => x8 (ix2 (0 : Fin 1) c)) q := by
  have e4 := @matmul_at 6400 128 48 .bf16 .bf16 dot_S6400x128_S128x48_S6400x48_1_0_0_1_n_n rfl rfl rfl rfl rfl rfl
  unfold k0_pay1
  simp only [truncf_apply, addf_apply, shapeCast_self, e4, broadcastTo_1b_ab_apply]
  rfl

/-- ENTRY `(p, q)` OF WHAT THE BODY STORES: the message of the edge whose feature rows are row `p` of the blocks. -/
theorem stored_at (x0 x1 : Vec Ideal S6400x48 .f32) (x2 : Vec Ideal S6400x16 .f32) (x3 : Vec Ideal S112x128 .f32)
    (x4 : Vec Ideal S1x128 .f32) (x5 : Vec Ideal S128x128 .f32) (x6 : Vec Ideal S1x128 .f32)
    (x7 : Vec Ideal S128x48 .f32) (x8 : Vec Ideal S1x48 .f32) (p : Fin 6400) (q : Fin 48) :
    k0_pay1 (F := Ideal) (k0_pay2 x0 x1 x2 x3 x4 x5 x6) x7 x8 (ix2 p q)
      = message (fun h => x0 (ix2 p h)) (fun h => x1 (ix2 p h)) (fun h => x2 (ix2 p h))
          (fun h c => x3 (ix2 h c)) (fun c => x4 (ix2 (0 : Fin 1) c)) (fun h c => x5 (ix2 h c))
          (fun c => x6 (ix2 (0 : Fin 1) c)) (fun h c => x7 (ix2 h c)) (fun c => x8 (ix2 (0 : Fin 1) c)) q := by
  rw [out_at]
  unfold message
  refine congrArg (fun v : Fin 128 → EReal => dense v (fun h c => x7 (ix2 h c)) (fun c => x8 (ix2 (0 : Fin 1) c)) q) ?_
  funext j
  exact hidden_at x0 x1 x2 x3 x4 x5 x6 p j

end Cert.KernelIdeal.Body

end
-- ==== Proof.KernelArray.lean ====
/-
  The array of messages the kernel's region leaves, as one function of the arrays the region finds.

  The grid has 250 points; point `t` works on edges `6400 t … 6400 t + 6399`: it is handed rows `6400 t + p` of the
  gathered source features, of the gathered target features and of the edge features as row `p` of its three blocks, the
  weight matrices and bias rows whole, and writes back rows `6400 t + p` of the result. Entry `(p, q)` of what it stores
  is the message of the edge in row `p` (`Cert.KernelIdeal.Body.stored_at`), so the block it writes back is block `t` of
  `Cert.EdgeMessage.messages` of the whole arrays. Every row `r` lies in the block of point `r / 6400`, so the blocks cover
  the result, which therefore IS `messages` of the arrays.
-/
import proofs.«133882_j74835510165535_1_alg».proof.Proof.Gen.KernelIdeal.Frame
import proofs.«133882_j74835510165535_1_alg».proof.Proof.KernelPayload
import Idealize.ShloMosaic.Lib.Pipeline.Value
import Idealize.ShloMosaic.Lib.ValueLayout

set_option maxRecDepth 16384

noncomputable section

namespace Cert.KernelIdeal.Region

open Cert.KernelIdeal Cert.KernelIdeal.Gen Idealize.ShloMosaic Idealize.ShloMosaic.TcCoe Idealize.ShloMosaic.ValueIdx
open Idealize.SL.Sem Cert.EdgeMessage
open Idealize.ShloMosaic.Pipeline (Dat)

variable (m : (ℓ : Loc nD τ sig) → Buf (Elt Ideal) ℓ)

theorem zeros : (![0, 0] : Fin 2 → Nat) = fun _ => 0 := funext fun a => by fin_cases a <;> rfl

/-- ENTRY `(p, q)` of what a point stores, when row `p` of its three row blocks is row `r` of the arrays `S`, `T`, `E`
    and its weight and bias blocks are the arrays `W₁ … b₃`: the message of edge `r` at feature `q`. -/
theorem point_eq {n : ℕ} (X0 X1 : Vec Ideal S6400x48 .f32) (X2 : Vec Ideal S6400x16 .f32) (X3 : Vec Ideal S112x128 .f32)
    (X4 : Vec Ideal S1x128 .f32) (X5 : Vec Ideal S128x128 .f32) (X6 : Vec Ideal S1x128 .f32)
    (X7 : Vec Ideal S128x48 .f32) (X8 : Vec Ideal S1x48 .f32)
    (S T : (⟨2, ![n, 48]⟩ : Shape).Idx → EReal) (E : (⟨2, ![n, 16]⟩ : Shape).Idx → EReal)
    (W₁ : (⟨2, ![112, 128]⟩ : Shape).Idx → EReal) (b₁ : Fin 128 → EReal)
    (W₂ : (⟨2, ![128, 128]⟩ : Shape).Idx → EReal) (b₂ : Fin 128 → EReal)
    (W₃ : (⟨2, ![128, 48]⟩ : Shape).Idx → EReal) (b₃ : Fin 48 → EReal)
    (p : Fin 6400) (q : Fin 48) (r : Fin n)
    (h0 : (fun h => X0 (ix2 p h)) = fun h => S (ix2 r h)) (h1 : (fun h => X1 (ix2 p h)) = fun h => T (ix2 r h))
    (h2 : (fun h => X2 (ix2 p h)) = fun h => E (ix2 r h))
    (h3 : (fun h c => X3 (ix2 h c)) = fun h c => W₁ (ix2 h c)) (h4 : (fun c => X4 (ix2 (0 : Fin 1) c)) = b₁)
    (h5 : (fun h c => X5 (ix2 h c)) = fun h c => W₂ (ix2 h c)) (h6 : (fun c => X6 (ix2 (0 : Fin 1) c)) = b₂)
    (h7 : (fun h c => X7 (ix2 h c)) = fun h c => W₃ (ix2 h c)) (h8 : (fun c => X8 (ix2 (0 : Fin 1) c)) = b₃) :
    k0_pay1 (F := Ideal) (k0_pay2 X0 X1 X2 X3 X4 X5 X6) X7 X8 (ix2 p q) = messages S T E W₁ b₁ W₂ b₂ W₃ b₃ (ix2 r q) := by
  rw [Body.stored_at, h0, h1, h2, h3, h4, h5, h6, h7, h8]
  rfl

/-- The printed index maps, decided over the grid: the three row windows and the result move with the point, one block
    of 6400 rows per point; the weight and bias windows stay on their one block. -/
theorem index_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The arrays the region finds, the biases read as functions of the feature. -/
abbrev found (c : Dev nD) : S1600000x48.Idx → EReal :=
  messages (n := 1600000) (V m c main_v10) (V m c main_v17) (V m c main_arg2) (V m c main_arg3)
    (fun k => V m c main_v18 (ix2 (0 : Fin 1) k)) (V m c main_arg5) (fun k => V m c main_v19 (ix2 (0 : Fin 1) k))
    (V m c main_arg7) (fun k => V m c main_v20 (ix2 (0 : Fin 1) k))

/-- Row `p` of point `t`'s block of window 0 is row `6400 t + p` of its array. -/
theorem rows_source (c : Dev nD) (t : Fin cfg0.N) (p : Fin 6400) (r : Fin 1600000) (hr : r.val = t.val * 6400 + p.val) :
    (fun h : Fin 48 => iblk m c 0 t (ix2 p h)) = fun h => V m c main_v10 (ix2 r h) := by
  obtain ⟨-, -, e0, e1, -⟩ := index_facts t
  funext h
  show V m c main_v10 (((cfg0.win 0).blk t).view.emb (ix2 p h)) = V m c main_v10 (ix2 r h)
  refine congrArg (V m c main_v10) (funext fun a => Fin.ext ?_)
  match a with
  | ⟨0, _⟩ => show win0_0.index t (0 : Fin 2) * 6400 + 1 * p.val = r.val; omega
  | ⟨1, _⟩ => show win0_0.index t (1 : Fin 2) * 48 + 1 * h.val = h.val; omega

/-- Row `p` of point `t`'s block of window 1 is row `6400 t + p` of its array. -/
theorem rows_target (c : Dev nD) (t : Fin cfg0.N) (p : Fin 6400) (r : Fin 1600000) (hr : r.val = t.val * 6400 + p.val) :
    (fun h : Fin 48 => iblk m c 1 t (ix2 p h)) = fun h => V m c main_v17 (ix2 r h) := by
  obtain ⟨-, -, -, -, e0, e1, -⟩ := index_facts t
  funext h
  show V m c main_v17 (((cfg0.win 1).blk t).view.emb (ix2 p h)) = V m c main_v17 (ix2 r h)
  refine congrArg (V m c main_v17) (funext fun a => Fin.ext ?_)
  match a with
  | ⟨0, _⟩ => show win0_1.index t (0 : Fin 2) * 6400 + 1 * p.val = r.val; omega
  | ⟨1, _⟩ => show win0_1.index t (1 : Fin 2) * 48 + 1 * h.val = h.val; omega

/-- Row `p` of point `t`'s block of window 2 is row `6400 t + p` of its array. -/
theorem rows_edge (c : Dev nD) (t : Fin cfg0.N) (p : Fin 6400) (r : Fin 1600000) (hr : r.val = t.val * 6400 + p.val) :
    (fun h : Fin 16 => iblk m c 2 t (ix2 p h)) = fun h => V m c main_arg2 (ix2 r h) := by
  obtain ⟨-, -, -, -, -, -, e0, e1, -⟩ := index_facts t
  funext h
  show V m c main_arg2 (((cfg0.win 2).blk t).view.emb (ix2 p h)) = V m c main_arg2 (ix2 r h)
  refine congrArg (V m c main_arg2) (funext fun a => Fin.ext ?_)
  match a with
  | ⟨0, _⟩ => show win0_2.index t (0 : Fin 2) * 6400 + 1 * p.val = r.val; omega
  | ⟨1, _⟩ => show win0_2.index t (1 : Fin 2) * 16 + 1 * h.val = h.val; omega

/-- Point `t`'s block of window 3 is its whole array. -/
theorem whole_w1 (c : Dev nD) (t : Fin cfg0.N) :
    (fun (h : Fin 112) (k : Fin 128) => iblk m c 3 t (ix2 h k)) = fun h k => V m c main_arg3 (ix2 h k) := by
  obtain ⟨-, -, -, -, -, -, -, -, e0, e1, -⟩ := index_facts t
  funext h k
  show V m c main_arg3 (((cfg0.win 3).blk t).view.emb (ix2 h k)) = V m c main_arg3 (ix2 h k)
  refine congrArg (V m c main_arg3) (funext fun a => Fin.ext ?_)
  match a with
  | ⟨0, _⟩ => show win0_3.index t (0 : Fin 2) * 112 + 1 * h.val = h.val; omega
  | ⟨1, _⟩ => show win0_3.index t (1 : Fin 2) * 128 + 1 * k.val = k.val; omega

/-- Point `t`'s block of window 4 is its one bias row. -/
theorem whole_b1 (c : Dev nD) (t : Fin cfg0.N) :
    (fun k : Fin 128 => iblk m c 4 t (ix2 (0 : Fin 1) k)) = fun k => V m c main_v18 (ix2 (0 : Fin 1) k) := by
  obtain ⟨-, -, -, -, -, -, -, -, -, -, e0, e1, -⟩ := index_facts t
  funext k
  show V m c main_v18 (((cfg0.win 4).blk t).view.emb (ix2 (0 : Fin 1) k)) = V m c main_v18 (ix2 (0 : Fin 1) k)
  refine congrArg (V m c main_v18) (funext fun a => Fin.ext ?_)
  match a with
  | ⟨0, _⟩ => show win0_4.index t (0 : Fin 2) * 1 + 1 * 0 = 0; omega
  | ⟨1, _⟩ => show win0_4.index t (1 : Fin 2) * 128 + 1 * k.val = k.val; omega

/-- Point `t`'s block of window 5 is its whole array. -/
theorem whole_w2 (c : Dev nD) (t : Fin cfg0.N) :
    (fun (h : Fin 128) (k : Fin 128) => iblk m c 5 t (ix2 h k)) = fun h k => V m c main_arg5 (ix2 h k) := by
  obtain ⟨-, -, -, -, -, -, -, -, -, -, -, -, e0, e1, -⟩ := index_facts t
  funext h k
  show V m c main_arg5 (((cfg0.win 5).blk t).view.emb (ix2 h k)) = V m c main_arg5 (ix2 h k)
  refine congrArg (V m c main_arg5) (funext fun a => Fin.ext ?_)
  match a with
  | ⟨0, _⟩ => show win0_5.index t (0 : Fin 2) * 128 + 1 * h.val = h.val; omega
  | ⟨1, _⟩ => show win0_5.index t (1 : Fin 2) * 128 + 1 * k.val = k.val; omega

/-- Point `t`'s block of window 6 is its one bias row. -/
theorem whole_b2 (c : Dev nD) (t : Fin cfg0.N) :
    (fun k : Fin 128 => iblk m c 6 t (ix2 (0 : Fin 1) k)) = fun k => V m c main_v19 (ix2 (0 : Fin 1) k) := by
  obtain ⟨-, -, -, -, -, -, -, -, -, -, -, -, -, -, e0, e1, -⟩ := index_facts t
  funext k
  show V m c main_v19 (((cfg0.win 6).blk t).view.emb (ix2 (0 : Fin 1) k)) = V m c main_v19 (ix2 (0 : Fin 1) k)
  refine congrArg (V m c main_v19) (funext fun a => Fin.ext ?_)
  match a with
  | ⟨0, _⟩ => show win0_6.index t (0 : Fin 2) * 1 + 1 * 0 = 0; omega
  | ⟨1, _⟩ => show win0_6.index t (1 : Fin 2) * 128 + 1 * k.val = k.val; omega

/-- Point `t`'s block of window 7 is its whole array. -/
theorem whole_w3 (c : Dev nD) (t : Fin cfg0.N) :
    (fun (h : Fin 128) (k : Fin 48) => iblk m c 7 t (ix2 h k)) = fun h k => V m c main_arg7 (ix2 h k) := by
  obtain ⟨-, -, -, -, -, -, -, -, -, -, -, -, -, -, -, -, e0, e1, -⟩ := index_facts t
  funext h k
  show V m c main_arg7 (((cfg0.win 7).blk t).view.emb (ix2 h k)) = V m c main_arg7 (ix2 h k)
  refine congrArg (V m c main_arg7) (funext fun a => Fin.ext ?_)
  match a with
  | ⟨0, _⟩ => show win0_7.index t (0 : Fin 2) * 128 + 1 * h.val = h.val; omega
  | ⟨1, _⟩ => show win0_7.index t (1 : Fin 2) * 48 + 1 * k.val = k.val; omega

/-- Point `t`'s block of window 8 is its one bias row. -/
theorem whole_b3 (c : Dev nD) (t : Fin cfg0.N) :
    (fun k : Fin 48 => iblk m c 8 t (ix2 (0 : Fin 1) k)) = fun k => V m c main_v20 (ix2 (0 : Fin 1) k) := by
  obtain ⟨-, -, -, -, -, -, -, -, -, -, -, -, -, -, -, -, -, -, e0, e1⟩ := index_facts t
  funext k
  show V m c main_v20 (((cfg0.win 8).blk t).view.emb (ix2 (0 : Fin 1) k)) = V m c main_v20 (ix2 (0 : Fin 1) k)
  refine congrArg (V m c main_v20) (funext fun a => Fin.ext ?_)
  match a with
  | ⟨0, _⟩ => show win0_8.index t (0 : Fin 2) * 1 + 1 * 0 = 0; omega
  | ⟨1, _⟩ => show win0_8.index t (1 : Fin 2) * 48 + 1 * k.val = k.val; omega

/-- WHAT POINT `t` WRITES BACK is block `t` of the messages of the arrays the region finds. -/
theorem flushed_eq (c : Dev nD) (t : Fin cfg0.N) :
    (dats m 0 c).flushed 9 t = ((cfg0.win 9).blk t).view.read (Elt Ideal) (found m c) := by
  show (cfg0.win 9).cut (grid0.coords t) ((dats m 0 c).after 9 t) = _
  rw [after0_9]
  unfold out0_9
  rw [View.canon_unit_zero zeros]
  simp only [View.ld_unit_zero (S := S6400x48) zeros, View.ld_unit_zero (S := S6400x16) zeros,
    View.ld_unit_zero (S := S112x128) zeros, View.ld_unit_zero (S := S1x128) zeros,
    View.ld_unit_zero (S := S128x128) zeros, View.ld_unit_zero (S := S128x48) zeros,
    View.ld_unit_zero (S := S1x48) zeros]
  obtain ⟨e90, e91, -⟩ := index_facts t
  have ht : t.val < 250 := Nat.lt_of_lt_of_eq t.isLt N_0
  funext j
  have hj0 : (j 0).val < 6400 := (j 0).isLt
  have hj1 : (j 1).val < 48 := (j 1).isLt
  show k0_pay1 (F := Ideal) (k0_pay2 (iblk m c 0 t) (iblk m c 1 t) (iblk m c 2 t) (iblk m c 3 t) (iblk m c 4 t)
      (iblk m c 5 t) (iblk m c 6 t)) (iblk m c 7 t) (iblk m c 8 t) j = found m c (((cfg0.win 9).blk t).view.emb j)
  have hemb : ((cfg0.win 9).blk t).view.emb j
      = ix2 (⟨t.val * 6400 + (j 0).val, by omega⟩ : Fin 1600000) (⟨(j 1).val, hj1⟩ : Fin 48) := by
    funext a; apply Fin.ext
    match a with
    | ⟨0, _⟩ => show win0_9.index t (0 : Fin 2) * 6400 + 1 * (j 0).val = t.val * 6400 + (j 0).val; omega
    | ⟨1, _⟩ => show win0_9.index t (1 : Fin 2) * 48 + 1 * (j 1).val = (j 1).val; omega
  have hj : j = ix2 (⟨(j 0).val, hj0⟩ : Fin 6400) (⟨(j 1).val, hj1⟩ : Fin 48) := by
    funext a; match a with | ⟨0, _⟩ => rfl | ⟨1, _⟩ => rfl
  rw [hemb]
  refine (congrArg (k0_pay1 (F := Ideal) (k0_pay2 (iblk m c 0 t) (iblk m c 1 t) (iblk m c 2 t) (iblk m c 3 t)
      (iblk m c 4 t) (iblk m c 5 t) (iblk m c 6 t)) (iblk m c 7 t) (iblk m c 8 t)) hj).trans ?_
  exact point_eq (n := 1600000) (iblk m c 0 t) (iblk m c 1 t) (iblk m c 2 t) (iblk m c 3 t) (iblk m c 4 t)
    (iblk m c 5 t) (iblk m c 6 t) (iblk m c 7 t) (iblk m c 8 t)
    (V m c main_v10) (V m c main_v17) (V m c main_arg2) (V m c main_arg3)
    (fun k => V m c main_v18 (ix2 (0 : Fin 1) k)) (V m c main_arg5) (fun k => V m c main_v19 (ix2 (0 : Fin 1) k))
    (V m c main_arg7) (fun k => V m c main_v20 (ix2 (0 : Fin 1) k))
    ⟨(j 0).val, hj0⟩ ⟨(j 1).val, hj1⟩ ⟨t.val * 6400 + (j 0).val, by omega⟩
    (rows_source m c t ⟨(j 0).val, hj0⟩ ⟨t.val * 6400 + (j 0).val, by omega⟩ rfl)
    (rows_target m c t ⟨(j 0).val, hj0⟩ ⟨t.val * 6400 + (j 0).val, by omega⟩ rfl)
    (rows_edge m c t ⟨(j 0).val, hj0⟩ ⟨t.val * 6400 + (j 0).val, by omega⟩ rfl)
    (whole_w1 m c t) (whole_b1 m c t) (whole_w2 m c t) (whole_b2 m c t) (whole_w3 m c t) (whole_b3 m c t)

/-- A row and a feature are in point `t`'s block iff each lies in the block's range on its axis. -/
theorem mem_block (t : Fin cfg0.N) (i : S1600000x48.Idx) :
    i ∈ ((cfg0.win 9).blk t).view.set ↔ ∀ a : Fin 2, win0_9.index t a * S6400x48.size a ≤ (i a).val
      ∧ (i a).val < win0_9.index t a * S6400x48.size a + S6400x48.size a := by
  show i ∈ ((View.whole main_v21).slice (win0_9.rect t)).set ↔ _
  rw [View.set_slice_whole, Rect.mem_set_unit]
  exact Iff.rfl

/-- Every entry of the result is in the block of the point its row falls under. -/
theorem covered (i : S1600000x48.Idx) :
    ∃ t : Fin cfg0.N, (cfg0.win 9).flush t = true ∧ i ∈ ((cfg0.win 9).blk t).view.set := by
  have hi0 : (i 0).val < 1600000 := (i 0).isLt
  have hi1 : (i 1).val < 48 := (i 1).isLt
  have hN : cfg0.N = 250 := N_0
  have hlt : (i 0).val / 6400 < cfg0.N := by rw [hN]; omega
  obtain ⟨e90, e91, -⟩ := index_facts ⟨(i 0).val / 6400, hlt⟩
  refine ⟨⟨(i 0).val / 6400, hlt⟩, flush0_9 _, ?_⟩
  rw [mem_block]
  intro a
  match a with
  | ⟨0, _⟩ =>
    show win0_9.index ⟨(i 0).val / 6400, hlt⟩ (0 : Fin 2) * 6400 ≤ (i 0).val
      ∧ (i 0).val < win0_9.index ⟨(i 0).val / 6400, hlt⟩ (0 : Fin 2) * 6400 + 6400
    rw [e90]
    show (i 0).val / 6400 * 6400 ≤ (i 0).val ∧ (i 0).val < (i 0).val / 6400 * 6400 + 6400
    omega
  | ⟨1, _⟩ =>
    show win0_9.index ⟨(i 0).val / 6400, hlt⟩ (1 : Fin 2) * 48 ≤ (i 1).val
      ∧ (i 1).val < win0_9.index ⟨(i 0).val / 6400, hlt⟩ (1 : Fin 2) * 48 + 48
    rw [e91]
    omega

/-- THE RESULT OF THE REGION is the messages of the arrays the region finds. -/
theorem result_eq (c : Dev nD) : (dats m 0 c).arrAt 9 cfg0.N = found m c :=
  (dats m 0 c).arrAt_eq_of_cover 9 (found m c) (fun t _ => flushed_eq m c t) (covered)

end Cert.KernelIdeal.Region

end
-- ==== Proof.Tail.lean ====
/-
  What both programs do with the messages: the mean of the incoming messages added to each node.

  Both programs end with the same host operations: the messages are summed into the rows their target indices name
  (a scatter-add into zeros), the number of messages per node is counted the same way (a scatter-add of ones), the
  sums are divided by the counts (at least one), and the quotient is added to the node features. `update` is that
  tail as ONE function of the node features `x0`, the vector of target indices and the message array, written once so
  that the two programs' results are compared through their messages alone: the tail itself is never opened.
-/
import proofs.«133882_j74835510165535_1_alg».proof.Proof.Gen.ReferenceIdeal.Read

noncomputable section

namespace Cert.ReferenceIdeal.Mean

open Cert.ReferenceIdeal Cert.ReferenceIdeal.Gen Cert.ReferenceIdeal.Read Idealize.ShloMosaic

variable {F : FTy → Type} [FloatOps F]

/-- The node features plus the mean of the messages sent to each node. -/
def update (x0 : (⟨S100000x48, .f32⟩ : BufTy).Contents (Elt F)) (tgt : (⟨S1600000, .i32⟩ : BufTy).Contents (Elt F))
    (msg : (⟨S1600000x48, .f32⟩ : BufTy).Contents (Elt F)) : (⟨S100000x48, .f32⟩ : BufTy).Contents (Elt F) :=
  addf (F := F) x0 (Host.divf (F := F)
    (Host.scatterAdd (F := F) scatter_S100000x48_S1600000x1_S1600000x48_1_0_0_1 (val_main_v33 (F := F))
      (broadcastInDim S1600000x1 ![0] bcast_S1600000_S1600000x1_0 tgt) msg)
    (broadcastInDim S100000x48 ![0, 1] bcast_S100000x1_S100000x48_0_1
      (broadcastInDim S100000x1 ![0] bcast_S100000_S100000x1_0
        (maximumf (F := F) (Host.scatterAdd (F := F) scatter_S100000_S1600000x1_S1600000_n_0_0_1 (val_main_v37 (F := F))
          (broadcastInDim S1600000x1 ![0] bcast_S1600000_S1600000x1_0 tgt) (val_main_v36 (F := F)))
          (val_main_v40 (F := F))))))

/-- The reference's result is `update` of its target indices and its messages. -/
theorem result_eq (x0 : (⟨S100000x48, .f32⟩ : BufTy).Contents (Elt F)) (x1 : (⟨S2x1600000, .i32⟩ : BufTy).Contents (Elt F))
    (x2 : (⟨S1600000x16, .f32⟩ : BufTy).Contents (Elt F)) (x3 : (⟨S112x128, .f32⟩ : BufTy).Contents (Elt F))
    (x4 : (⟨S128, .f32⟩ : BufTy).Contents (Elt F)) (x5 : (⟨S128x128, .f32⟩ : BufTy).Contents (Elt F))
    (x6 : (⟨S128, .f32⟩ : BufTy).Contents (Elt F)) (x7 : (⟨S128x48, .f32⟩ : BufTy).Contents (Elt F))
    (x8 : (⟨S48, .f32⟩ : BufTy).Contents (Elt F)) :
    val_main_v45 (F := F) x0 x1 x2 x3 x4 x5 x6 x7 x8
      = update (F := F) x0 (val_main_v3 (F := F) x1) (val_main_v32 (F := F) x0 x1 x2 x3 x4 x5 x6 x7 x8) := rfl

end Cert.ReferenceIdeal.Mean

end
-- ==== Proof.KernelRun.lean ====
/-
  The kernel's run, read as a value: its result is `update` of the node features, the target indices and
  `messages` of the gathered features.

  Before the region the host gathers the source and the target rows of the node features and reshapes each bias `[n]`
  to a row `[1, n]`: the gathered arrays are the reference's own gather terms, and a reshaped bias read at `(0, k)` is
  the bias at `k`. The region leaves `messages` of what it finds (`Cert.KernelIdeal.Region.result_eq`). After the region
  the host runs the scatter-mean tail on the region's result, the target indices computed before the region and the
  node features, none of which the region or the tail's earlier lines overwrite: that tail, at ANY contents of the
  buffers it reads, is `Cert.ReferenceIdeal.Mean.update` of them (`tail_after`).
-/
import proofs.«133882_j74835510165535_1_alg».proof.Proof.Gen.KernelIdeal.Frame
import proofs.«133882_j74835510165535_1_alg».proof.Proof.KernelArray
import proofs.«133882_j74835510165535_1_alg».proof.Proof.Tail
import Idealize.ShloMosaic.Lib.Pipeline.Value
import Idealize.ShloMosaic.Lib.ValueLayout
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.ShloMosaic.StableHlo
open Idealize.ShloMosaic.ValueIdx Idealize.SL.Sem Cert.EdgeMessage

/-- The host lines after the region, run from ANY buffer contents `W`, leave in the result buffer the node features
    plus the mean of the messages: `update` of the three buffers they read. -/
theorem tail_after {F : FTy → Type} [FloatOps F] (W : Valuation τ sig (Elt F)) :
    StableHlo.after (List.flatten [hostOps1 (F := F)]) W (Proc.devRef .tc main_v34)
      = Cert.ReferenceIdeal.Mean.update (F := F) (W (Proc.devRef .tc main_arg0)) (W (Proc.devRef .tc main_v3))
          (W (Proc.devRef .tc main_v21)) := by
  simp only [List.flatten_cons, List.flatten_nil, List.append_nil]
  after_results
  rfl

variable (m : (ℓ : Loc nD τ sig) → Buf (Elt Ideal) ℓ)

/-- The region finds the gathered source rows the reference gathers. -/
theorem source_rows (c : Dev nD) :
    V m c main_v10 = Cert.ReferenceIdeal.Read.val_main_v10 (F := Ideal) (m ((c : Thread nD τ).loc main_arg0)) (m ((c : Thread nD τ).loc main_arg1)) := by
  show StableHlo.after hostOps0 (fun b => m (c, b)) (Proc.devRef .tc main_v10) = _
  after_results
  rfl

/-- The region finds the gathered target rows the reference gathers. -/
theorem target_rows (c : Dev nD) :
    V m c main_v17 = Cert.ReferenceIdeal.Read.val_main_v17 (F := Ideal) (m ((c : Thread nD τ).loc main_arg0)) (m ((c : Thread nD τ).loc main_arg1)) := by
  show StableHlo.after hostOps0 (fun b => m (c, b)) (Proc.devRef .tc main_v17) = _
  after_results_simp
  rfl

/-- The target indices the tail scatters by are the reference's. -/
theorem targets (c : Dev nD) :
    V m c main_v3 = Cert.ReferenceIdeal.Read.val_main_v3 (F := Ideal) (m ((c : Thread nD τ).loc main_arg1)) := by
  show StableHlo.after hostOps0 (fun b => m (c, b)) (Proc.devRef .tc main_v3) = _
  after_results
  rfl

/-- The first bias as the region finds it, a row `[1, 128]`, read at `(0, k)`. -/
theorem bias1 (c : Dev nD) :
    (fun k : Fin 128 => V m c main_v18 (ix2 (0 : Fin 1) k)) = fun k => (m ((c : Thread nD τ).loc main_arg4)) (ix1 k) := by
  have e : V m c main_v18 = shapeCast S1x128 (m ((c : Thread nD τ).loc main_arg4)) shapeCasts_S128_S1x128 := by
    show StableHlo.after hostOps0 (fun b => m (c, b)) (Proc.devRef .tc main_v18) = _
    after_results
    rfl
  funext k
  exact (congrFun e (ix2 (0 : Fin 1) k)).trans (shapeCast_a_1a_apply _ shapeCasts_S128_S1x128 0 k)

/-- The second bias as the region finds it, read at `(0, k)`. -/
theorem bias2 (c : Dev nD) :
    (fun k : Fin 128 => V m c main_v19 (ix2 (0 : Fin 1) k)) = fun k => (m ((c : Thread nD τ).loc main_arg6)) (ix1 k) := by
  have e : V m c main_v19 = shapeCast S1x128 (m ((c : Thread nD τ).loc main_arg6)) shapeCasts_S128_S1x128 := by
    show StableHlo.after hostOps0 (fun b => m (c, b)) (Proc.devRef .tc main_v19) = _
    after_results
    rfl
  funext k
  exact (congrFun e (ix2 (0 : Fin 1) k)).trans (shapeCast_a_1a_apply _ shapeCasts_S128_S1x128 0 k)

/-- The third bias as the region finds it, a row `[1, 48]`, read at `(0, k)`. -/
theorem bias3 (c : Dev nD) :
    (fun k : Fin 48 => V m c main_v20 (ix2 (0 : Fin 1) k)) = fun k => (m ((c : Thread nD τ).loc main_arg8)) (ix1 k) := by
  have e : V m c main_v20 = shapeCast S1x48 (m ((c : Thread nD τ).loc main_arg8)) shapeCasts_S48_S1x48 := by
    show StableHlo.after hostOps0 (fun b => m (c, b)) (Proc.devRef .tc main_v20) = _
    after_results
    rfl
  funext k
  exact (congrFun e (ix2 (0 : Fin 1) k)).trans (shapeCast_a_1a_apply _ shapeCasts_S48_S1x48 0 k)

/-- The messages of all edges, from the arrays the program is launched with. -/
abbrev launched (c : Dev nD) : S1600000x48.Idx → EReal :=
  messages (n := 1600000)
    (Cert.ReferenceIdeal.Read.val_main_v10 (F := Ideal) (m ((c : Thread nD τ).loc main_arg0)) (m ((c : Thread nD τ).loc main_arg1)))
    (Cert.ReferenceIdeal.Read.val_main_v17 (F := Ideal) (m ((c : Thread nD τ).loc main_arg0)) (m ((c : Thread nD τ).loc main_arg1)))
    (m ((c : Thread nD τ).loc main_arg2)) (m ((c : Thread nD τ).loc main_arg3)) (fun k => (m ((c : Thread nD τ).loc main_arg4)) (ix1 k))
    (m ((c : Thread nD τ).loc main_arg5)) (fun k => (m ((c : Thread nD τ).loc main_arg6)) (ix1 k))
    (m ((c : Thread nD τ).loc main_arg7)) (fun k => (m ((c : Thread nD τ).loc main_arg8)) (ix1 k))

/-- What the region finds is what the program was launched with, gathered and reshaped. -/
theorem found_eq (c : Dev nD) : Region.found m c = launched m c := by
  show messages (n := 1600000) (V m c main_v10) (V m c main_v17) (V m c main_arg2) (V m c main_arg3)
    (fun k => V m c main_v18 (ix2 (0 : Fin 1) k)) (V m c main_arg5) (fun k => V m c main_v19 (ix2 (0 : Fin 1) k))
    (V m c main_arg7) (fun k => V m c main_v20 (ix2 (0 : Fin 1) k)) = _
  rw [source_rows, target_rows, V_main_arg2, V_main_arg3, bias1, V_main_arg5, bias2, V_main_arg7, bias3]

/-- The program's result: the node features plus the mean of the messages sent to each node. -/
abbrev answer (c : Dev nD) : S100000x48.Idx → EReal :=
  Cert.ReferenceIdeal.Mean.update (F := Ideal) (m ((c : Thread nD τ).loc main_arg0))
    (Cert.ReferenceIdeal.Read.val_main_v3 (F := Ideal) (m ((c : Thread nD τ).loc main_arg1))) (launched m c)

/-- The buffers after the host lines that follow the region hold `answer` in the result buffer. -/
theorem tail_eq (c : Dev nD) :
    Pipeline.afterTail₀ cfgs (dats m) 0 (V0 m) [hostOps1] c main_v34 = answer m c := by
  unfold Pipeline.afterTail₀
  rw [tail_after]
  have ea : Pipeline.withArrays (cfgs 0).spec c (V0 m c) (fun w => (dats m 0 c).arrAt w (cfgs 0).N)
      (Proc.devRef .tc main_arg0) = (m ((c : Thread nD τ).loc main_arg0)) :=
    (Pipeline.withArrays_of_ne _ c (V0 m c) _ main_arg0
      (by exact (by decide : ∀ w, Pipeline.arrRef spec0 w ≠ main_arg0))).trans (V_main_arg0 m c)
  have eb : Pipeline.withArrays (cfgs 0).spec c (V0 m c) (fun w => (dats m 0 c).arrAt w (cfgs 0).N)
      (Proc.devRef .tc main_v3) = Cert.ReferenceIdeal.Read.val_main_v3 (F := Ideal) (m ((c : Thread nD τ).loc main_arg1)) :=
    (Pipeline.withArrays_of_ne _ c (V0 m c) _ main_v3
      (by exact (by decide : ∀ w, Pipeline.arrRef spec0 w ≠ main_v3))).trans (targets m c)
  have ec : Pipeline.withArrays (cfgs 0).spec c (V0 m c) (fun w => (dats m 0 c).arrAt w (cfgs 0).N)
      (Proc.devRef .tc main_v21) = launched m c :=
    (Pipeline.withArrays_arr spec0 launch0.win.arr_inj c (V0 m c) _ 9).trans
      ((Region.result_eq m c).trans (found_eq m c))
  rw [ea, eb, ec]

/-- THE KERNEL'S RUN: every weakly fair execution terminates with `answer` in the result buffer and the argument
    arrays as launched. -/
theorem run (ρ : Dev nD → PrngReg) :
    θ_run defs (onTc (τ := τ) (main (F := Ideal))) ⟨m, fun _ => 0, ρ⟩ (fun r => ∀ c : Dev nD,
      r.2.mem ((c : Thread nD τ).loc main_v34) = answer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun _ h c =>
    ⟨((h c).2 main_v34 (Pipeline.mem_restRefs_of main_v34 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c)⟩)
    (run_main m ρ)

end Cert.KernelIdeal.Result

end
-- ==== Proof.RefMessage.lean ====
/-
  The reference's messages are `Cert.EdgeMessage.messages` of the two gathered arrays and the edge features.

  The reference joins row `r` of the gathered source features, of the gathered target features and of the edge
  features into one row of 112 entries, multiplies it by `W₁`, adds `b₁` and thresholds; two more dense layers follow.
  Read at an entry, each matrix product is a sum over the contracted coordinate and each bias, broadcast down the rows,
  contributes its entry at the column. The joined row read at column `k` is the first, second or third piece according
  to where `k` falls, so the first layer is the ONE-product form of `Cert.EdgeMessage.first` (`first_joined`).
-/
import proofs.«133882_j74835510165535_1_alg».proof.Proof.Gen.ReferenceIdeal.Read
import proofs.«133882_j74835510165535_1_alg».proof.Proof.LibConcatThree
import proofs.«133882_j74835510165535_1_alg».proof.Proof.Spec
import Idealize.ShloMosaic.Lib.ValueIdx

noncomputable section

namespace Cert.ReferenceIdeal.Message

open Cert.ReferenceIdeal Cert.ReferenceIdeal.Gen Cert.ReferenceIdeal.Read Idealize.ShloMosaic Idealize.ShloMosaic.ValueIdx Cert.EdgeMessage

variable [Cert.ReferenceIdeal.Facts]

/-- Row `r` of the joined array at column `k`: the three rows joined. -/
theorem joined_at (x0 : (⟨S100000x48, .f32⟩ : BufTy).Contents (Elt Ideal)) (x1 : (⟨S2x1600000, .i32⟩ : BufTy).Contents (Elt Ideal))
    (x2 : (⟨S1600000x16, .f32⟩ : BufTy).Contents (Elt Ideal)) (r : Fin 1600000) (k : Fin 112) :
    val_main_v18 (F := Ideal) x0 x1 x2 (ix2 r k)
      = joined (fun h => val_main_v10 (F := Ideal) x0 x1 (ix2 r h)) (fun h => val_main_v17 (F := Ideal) x0 x1 (ix2 r h))
          (fun h => x2 (ix2 r h)) k := by
  unfold val_main_v18 joined
  by_cases h₁ : k.val < 48
  · rw [dif_pos h₁]
    exact Cert.LibConcatThree.concat3_first _ _ _ concatenates_S1600000x48_S1600000x48_S1600000x16_S1600000x112_d1 r k h₁
  · rw [dif_neg h₁]
    by_cases h₂ : k.val < 96
    · rw [dif_pos h₂]
      exact Cert.LibConcatThree.concat3_second _ _ _ concatenates_S1600000x48_S1600000x48_S1600000x16_S1600000x112_d1 r k
        ⟨k.val - 48, by omega⟩ (by show 48 + (k.val - 48) = k.val; omega)
    · rw [dif_neg h₂]
      have hk : k.val < 112 := k.isLt
      exact Cert.LibConcatThree.concat3_third _ _ _ concatenates_S1600000x48_S1600000x48_S1600000x16_S1600000x112_d1 r k
        ⟨k.val - 96, by omega⟩ (by show 48 + 48 + (k.val - 96) = k.val; omega)

/-- The first layer before its threshold, at row `r` and unit `c`. -/
theorem first_at (x0 : (⟨S100000x48, .f32⟩ : BufTy).Contents (Elt Ideal)) (x1 : (⟨S2x1600000, .i32⟩ : BufTy).Contents (Elt Ideal))
    (x2 : (⟨S1600000x16, .f32⟩ : BufTy).Contents (Elt Ideal)) (x3 : (⟨S112x128, .f32⟩ : BufTy).Contents (Elt Ideal))
    (x4 : (⟨S128, .f32⟩ : BufTy).Contents (Elt Ideal)) (r : Fin 1600000) (c : Fin 128) :
    val_main_v22 (F := Ideal) x0 x1 x2 x3 x4 (ix2 r c)
      = first (fun h => val_main_v10 (F := Ideal) x0 x1 (ix2 r h)) (fun h => val_main_v17 (F := Ideal) x0 x1 (ix2 r h))
          (fun h => x2 (ix2 r h)) (fun h c => x3 (ix2 h c)) (fun c => x4 (ix1 c)) c := by
  rw [← first_joined, val_main_v22_apply, val_main_v19_apply, val_main_v21_apply, val_main_v20_apply]
  unfold dense
  refine congrArg₂ (· + ·) (Finset.sum_congr rfl fun k _ => ?_) ?_
  · have el : lidx_main_v19 (ix2 r c) k = ix2 r k := funext fun a => Fin.ext (by
      match a with | ⟨0, _⟩ => rfl | ⟨1, _⟩ => rfl)
    have er : ridx_main_v19 (ix2 r c) k = ix2 k c := funext fun a => Fin.ext (by
      match a with | ⟨0, _⟩ => rfl | ⟨1, _⟩ => rfl)
    rw [el, er, joined_at]
  · exact congrArg x4 (funext fun a => Fin.ext (by match a with | ⟨0, _⟩ => rfl))

/-- The second layer before its threshold, at row `r` and unit `c`, from the first layer's row. -/
theorem second_at (x0 : (⟨S100000x48, .f32⟩ : BufTy).Contents (Elt Ideal)) (x1 : (⟨S2x1600000, .i32⟩ : BufTy).Contents (Elt Ideal))
    (x2 : (⟨S1600000x16, .f32⟩ : BufTy).Contents (Elt Ideal)) (x3 : (⟨S112x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (r : Fin 1600000) (c : Fin 128) :
    val_main_v27 (F := Ideal) x0 x1 x2 x3 x4 x5 x6 (ix2 r c)
      = dense (fun i => max (val_main_v22 (F := Ideal) x0 x1 x2 x3 x4 (ix2 r i)) (Ideal.ofBits .f32 0x00000000#32))
          (fun h c => x5 (ix2 h c)) (fun c => x6 (ix1 c)) c := by
  rw [val_main_v27_apply, val_main_v24_apply, val_main_v26_apply, val_main_v25_apply]
  unfold dense
  refine congrArg₂ (· + ·) (Finset.sum_congr rfl fun k _ => ?_) ?_
  · have el : lidx_main_v24 (ix2 r c) k = ix2 r k := funext fun a => Fin.ext (by
      match a with | ⟨0, _⟩ => rfl | ⟨1, _⟩ => rfl)
    have er : ridx_main_v24 (ix2 r c) k = ix2 k c := funext fun a => Fin.ext (by
      match a with | ⟨0, _⟩ => rfl | ⟨1, _⟩ => rfl)
    rw [el, er, val_main_v23_apply, val_main_call0_v0_apply, val_main_call0_cst_apply]
    rfl
  · exact congrArg x6 (funext fun a => Fin.ext (by match a with | ⟨0, _⟩ => rfl))

/-- The message at row `r` and feature `q`, from the second layer's row. -/
theorem third_at (x0 : (⟨S100000x48, .f32⟩ : BufTy).Contents (Elt Ideal)) (x1 : (⟨S2x1600000, .i32⟩ : BufTy).Contents (Elt Ideal))
    (x2 : (⟨S1600000x16, .f32⟩ : BufTy).Contents (Elt Ideal)) (x3 : (⟨S112x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x48, .f32⟩ : BufTy).Contents (Elt Ideal))
    (x8 : (⟨S48, .f32⟩ : BufTy).Contents (Elt Ideal)) (r : Fin 1600000) (q : Fin 48) :
    val_main_v32 (F := Ideal) x0 x1 x2 x3 x4 x5 x6 x7 x8 (ix2 r q)
      = dense (fun j => max (val_main_v27 (F := Ideal) x0 x1 x2 x3 x4 x5 x6 (ix2 r j)) (Ideal.ofBits .f32 0x00000000#32))
          (fun h c => x7 (ix2 h c)) (fun c => x8 (ix1 c)) q := by
  rw [val_main_v32_apply, val_main_v29_apply, val_main_v31_apply, val_main_v30_apply]
  unfold dense
  refine congrArg₂ (· + ·) (Finset.sum_congr rfl fun k _ => ?_) ?_
  · have el : lidx_main_v29 (ix2 r q) k = ix2 r k := funext fun a => Fin.ext (by
      match a with | ⟨0, _⟩ => rfl | ⟨1, _⟩ => rfl)
    have er : ridx_main_v29 (ix2 r q) k = ix2 k q := funext fun a => Fin.ext (by
      match a with | ⟨0, _⟩ => rfl | ⟨1, _⟩ => rfl)
    rw [el, er, val_main_v28_apply, val_main_call1_v0_apply, val_main_call1_cst_apply]
    rfl
  · exact congrArg x8 (funext fun a => Fin.ext (by match a with | ⟨0, _⟩ => rfl))

/-- THE REFERENCE'S MESSAGES are `messages` of the gathered source and target features and the edge features. -/
theorem messages_eq (x0 : (⟨S100000x48, .f32⟩ : BufTy).Contents (Elt Ideal)) (x1 : (⟨S2x1600000, .i32⟩ : BufTy).Contents (Elt Ideal))
    (x2 : (⟨S1600000x16, .f32⟩ : BufTy).Contents (Elt Ideal)) (x3 : (⟨S112x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x48, .f32⟩ : BufTy).Contents (Elt Ideal))
    (x8 : (⟨S48, .f32⟩ : BufTy).Contents (Elt Ideal)) :
    val_main_v32 (F := Ideal) x0 x1 x2 x3 x4 x5 x6 x7 x8
      = messages (val_main_v10 (F := Ideal) x0 x1) (val_main_v17 (F := Ideal) x0 x1) x2 x3 (fun c => x4 (ix1 c))
          x5 (fun c => x6 (ix1 c)) x7 (fun c => x8 (ix1 c)) := by
  funext i
  obtain ⟨r, q, rfl⟩ : ∃ (r : Fin 1600000) (q : Fin 48), i = ix2 r q := ⟨i 0, i 1, eq_ix2 i⟩
  rw [third_at]
  unfold messages message
  refine congrArg (fun v : Fin 128 → EReal => dense v (fun h c => x7 (ix2 h c)) (fun c => x8 (ix1 c)) q) ?_
  funext j
  rw [second_at]
  refine congrArg (fun v : Fin 128 → EReal =>
    max (dense v (fun h c => x5 (ix2 h c)) (fun c => x6 (ix1 c)) j) (Ideal.ofBits .f32 0x00000000#32)) ?_
  funext i
  rw [first_at]

end Cert.ReferenceIdeal.Message

end
-- ==== Proof.lean ====
/-
  Message passing on a graph: every edge sends its target node a message computed from the two end nodes' features and
  its own, and every node adds the mean of the messages it receives to its features.

  Both programs gather, for each of the 1,600,000 edges, row `source` and row `target` of the node features, compute the
  edge's message by a three-layer perceptron (`Cert.EdgeMessage.message`), and finish with the same scatter-mean
  (`Cert.ReferenceIdeal.Mean.update`). They differ in the perceptron's first layer and in where it runs. The reference
  joins the three feature rows into one row of 112 entries and takes ONE product with `W₁`; the kernel takes THREE
  products, with rows 0–47, 48–95 and 96–111 of `W₁`, and adds them; it runs the perceptron on the accelerator, 6400 edges
  per grid point, rounding the operands of each product to a narrower float format. On the extended reals the roundings
  are the identity, each product is the sum over the contracted coordinate, and a sum over 112 = 48 + 48 + 16 indices is
  the sum of its three stretches (`Cert.EdgeMessage.first_joined`): commutativity and associativity of addition alone, so
  no entry need be finite and the precondition is never opened. The 250 blocks of 6400 rows tile the message array, so
  the kernel's messages are one function of the arrays (`Cert.KernelIdeal.Region.result_eq`), the same function the
  reference computes (`Cert.ReferenceIdeal.Message.messages_eq`); the common tail is applied to equal arguments.

  The three frames are the generated ones (the reference's is its generated run with the result dropped), and the
  idealization rewrote nothing, so `preserves` holds trivially.
-/
import proofs.«133882_j74835510165535_1_alg».proof.Defs
import proofs.«133882_j74835510165535_1_alg».proof.Proof.Gen.Kernel
import proofs.«133882_j74835510165535_1_alg».proof.Proof.Gen.Kernel.Skeleton
import proofs.«133882_j74835510165535_1_alg».proof.Proof.Gen.Kernel.Launch
import proofs.«133882_j74835510165535_1_alg».proof.Proof.Gen.Kernel.Points
import proofs.«133882_j74835510165535_1_alg».proof.Proof.Gen.Kernel.Frame
import proofs.«133882_j74835510165535_1_alg».proof.Proof.Gen.KernelIdeal
import proofs.«133882_j74835510165535_1_alg».proof.Proof.Gen.KernelIdeal.Skeleton
import proofs.«133882_j74835510165535_1_alg».proof.Proof.Gen.KernelIdeal.Launch
import proofs.«133882_j74835510165535_1_alg».proof.Proof.Gen.KernelIdeal.Points
import proofs.«133882_j74835510165535_1_alg».proof.Proof.Gen.KernelIdeal.Frame
import proofs.«133882_j74835510165535_1_alg».proof.Proof.Gen.ReferenceIdeal
import proofs.«133882_j74835510165535_1_alg».proof.Proof.Gen.Pre_finite_inputs
import proofs.«133882_j74835510165535_1_alg».proof.Proof.Gen.ReferenceIdeal.Run
import proofs.«133882_j74835510165535_1_alg».proof.Proof.Gen.ReferenceIdeal.Read
import proofs.«133882_j74835510165535_1_alg».proof.Proof.KernelRun
import proofs.«133882_j74835510165535_1_alg».proof.Proof.RefMessage
import proofs.«133882_j74835510165535_1_alg».proof.Proof.Tail
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments alone: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals both programs end with the node features plus the mean of the same messages: the kernel's
    result is `update` of `messages` of the gathered arrays (`Cert.KernelIdeal.Result.run`); the reference's result is
    `update` of its own messages (`Mean.result_eq`), which are `messages` of the same gathered arrays (`messages_eq`);
    the arguments agree. -/
theorem algebraic : Cert.algebraic_KernelIdeal_ReferenceIdeal := by
  intro m ρ m' ρ' _ hagree
  refine ⟨fun c => Cert.KernelIdeal.Result.answer m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.ReferenceIdeal.Mean.result_eq,
    Cert.ReferenceIdeal.Message.messages_eq]
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
